-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S64x768 : Shape := ⟨2, ![64, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S8x2048x768 .f32) (main_arg1 : FVec F S64x768 .f32) (main_arg2 : FVec F S64x768 .f32) (main_arg3 : FVec F S64x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S8x2048x768 : Shape := ⟨3, ![8, 2048, 768]⟩
abbrev S64x768 : Shape := ⟨2, ![64, 768]⟩
abbrev S768x64 : Shape := ⟨2, ![768, 64]⟩
abbrev S8x2048x64 : Shape := ⟨3, ![8, 2048, 64]⟩
abbrev S1x2048x768 : Shape := ⟨3, ![1, 2048, 768]⟩
abbrev S1x256x64 : Shape := ⟨3, ![1, 256, 64]⟩
abbrev S64x2048 : Shape := ⟨2, ![64, 2048]⟩
abbrev S2048x64 : Shape := ⟨2, ![2048, 64]⟩
abbrev S2048x768 : Shape := ⟨2, ![2048, 768]⟩
abbrev S1x256x768 : Shape := ⟨3, ![1, 256, 768]⟩
abbrev S256x768 : Shape := ⟨2, ![256, 768]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S768x64, .f32⟩
  | .hbm, ⟨5, _⟩ => ⟨S768x64, .f32⟩
  | .hbm, ⟨6, _⟩ => ⟨S768x64, .f32⟩
  | .hbm, ⟨7, _⟩ => ⟨S8x2048x64, .f32⟩
  | .local _ .vmem, ⟨0, _⟩ => ⟨S1x2048x768, .f32⟩
  | .local _ .vmem, ⟨1, _⟩ => ⟨S1x2048x768, .f32⟩
  | .local _ .vmem, ⟨2, _⟩ => ⟨S768x64, .f32⟩
  | .local _ .vmem, ⟨3, _⟩ => ⟨S768x64, .f32⟩
  | .local _ .vmem, ⟨4, _⟩ => ⟨S768x64, .f32⟩
  | .local _ .vmem, ⟨5, _⟩ => ⟨S1x256x64, .f32⟩
  | .local _ .vmem, ⟨6, _⟩ => ⟨S1x256x64, .f32⟩
  | .local _ .vmem, ⟨7, _⟩ => ⟨S64x2048, .f32⟩
  | .local _ .vmem, ⟨8, _⟩ => ⟨S2048x64, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S64x768_S768x64_1_0 : S64x768.Transposes [1, 0] S768x64
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  shapeCasts_S768x64_S768x64 : S768x64.ShapeCasts S768x64
  transposes_S2048x64_p1_0_S64x2048 : S2048x64.Transposes [1, 0] S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1x256x768 : 0 < S1x256x768.numel
  shapeCasts_S1x256x768_S256x768 : S1x256x768.ShapeCasts S256x768
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x768_S768x64_S2048x64_1_0_0_1_n_n_wf : DotDims.WF S2048x768 S768x64 S2048x64 [1] [0] [0] [1] [] []
  dot_S256x768_S768x64_S256x64_1_0_0_1_n_n_wf : DotDims.WF S256x768 S768x64 S256x64 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x768.size a ≤ S1x2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S8x2048x768.size a
  hwx0_0 : ∀ i : grid0.Coords, EltTy.bits .f32 = 32 ∨ (Rect.block (s := S8x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .f32 = 32 ∨ (Rect.block (s := S768x64) S768x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S8x2048x64.size a
  hwx0_4 : ∀ i : grid0.Coords, EltTy.bits .f32 = 32 ∨ (Rect.block (s := S8x2048x64) S1x256x64.size (cc0_transform_4 i) (hinb0_4 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S64x768 : Shape := ⟨2, ![64, 768]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x2048x2048, .i1⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x64, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S64x768_S8x2048x64_2_1_01_0_n_n_wf : DotDims.WF S8x2048x768 S64x768 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x768_S64x768_S8x2048x64_2_1_01_0_n_n : DotDims S8x2048x768 S64x768 S8x2048x64 where
  lhsContracting := [2]
  rhsContracting := [1]
  lhsNonContracting := [0, 1]
  rhsNonContracting := [0]
  lhsBatch := []
  rhsBatch := []
  wf := dot_S8x2048x768_S64x768_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelPieces.lean ====
/-
  What one run of the kernel body leaves behind, as values.

  At the first tile of a batch the body stores the whole key table (transposed) and the whole value table, each with
  one store covering its buffer, and then reads them back; at the other tiles it stores neither and reads what the
  tile before left. In both cases the output block receives one covering store: the tile of results computed from 256
  query rows of the batch's block, the query weights, and the two tables. The 256 query rows are the rows
  q * 256 .. q * 256 + 255 of the batch's block, q the tile's number. Stated for any float instance.
-/
import proofs.«159955_j59356448031312_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 query rows of tile i, read off the batch's block. -/
def queryRows (i : grid0.Coords) (x0 : Vec F S1x2048x768 .f32) : Vec F S1x256x768 .f32 :=
  View.ld x0 (Rect.unit (s := S1x2048x768) (k0_off1 i) S1x256x768.size (k0_off1_inb i))

/-- First tile of a batch: the key-table buffer ends holding the transposed key table of the batch's block. -/
theorem keysT_A (c : Dev nD) (i : grid0.Coords) (arg2 : Memref sig .tc .vmem S1x2048x768 .f32) (harg2 : arg2.IsWhole) (arg3 : Memref sig .tc .vmem S768x64 .f32) (harg3 : arg3.IsWhole) (arg4 : Memref sig .tc .vmem S768x64 .f32) (harg4 : arg4.IsWhole) (arg5 : Memref sig .tc .vmem S768x64 .f32) (harg5 : arg5.IsWhole) (arg6 : Memref sig .tc .vmem S1x256x64 .f32) (harg6 : arg6.IsWhole) (arg7 : Memref sig .tc .vmem S64x2048 .f32) (harg7 : arg7.IsWhole) (arg8 : Memref sig .tc .vmem S2048x64 .f32) (harg8 : arg8.IsWhole) (hc0 : cond0_0 i) (x0 : Vec F S1x2048x768 .f32) (x1 : Vec F S768x64 .f32) (x2 : Vec F S768x64 .f32) (x3 : Vec F S768x64 .f32) :
    sout0_A_0 c i arg2 harg2 arg3 harg3 arg4 harg4 arg5 harg5 arg6 harg6 arg7 harg7 arg8 harg8 hc0 x0 x1 x2 x3 = k0_pay3 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg4.read_unread, View.ld_unit_zero (S := S1x2048x768) hz3,
    View.ld_unit_zero (S := S768x64) hz2]

/-- First tile of a batch: the value-table buffer ends holding the value table of the batch's block. -/
theorem values_A (c : Dev nD) (i : grid0.Coords) (arg2 : Memref sig .tc .vmem S1x2048x768 .f32) (harg2 : arg2.IsWhole) (arg3 : Memref sig .tc .vmem S768x64 .f32) (harg3 : arg3.IsWhole) (arg4 : Memref sig .tc .vmem S768x64 .f32) (harg4 : arg4.IsWhole) (arg5 : Memref sig .tc .vmem S768x64 .f32) (harg5 : arg5.IsWhole) (arg6 : Memref sig .tc .vmem S1x256x64 .f32) (harg6 : arg6.IsWhole) (arg7 : Memref sig .tc .vmem S64x2048 .f32) (harg7 : arg7.IsWhole) (arg8 : Memref sig .tc .vmem S2048x64 .f32) (harg8 : arg8.IsWhole) (hc0 : cond0_0 i) (x0 : Vec F S1x2048x768 .f32) (x1 : Vec F S768x64 .f32) (x2 : Vec F S768x64 .f32) (x3 : Vec F S768x64 .f32) :
    sout0_A_1 c i arg2 harg2 arg3 harg3 arg4 harg4 arg5 harg5 arg6 harg6 arg7 harg7 arg8 harg8 hc0 x0 x1 x2 x3 = k0_pay4 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread, View.ld_unit_zero (S := S1x2048x768) hz3,
    View.ld_unit_zero (S := S768x64) hz2]

/-- First tile of a batch: the output block is the tile of results over the tables just stored. -/
theorem out_A (c : Dev nD) (i : grid0.Coords) (arg2 : Memref sig .tc .vmem S1x2048x768 .f32) (harg2 : arg2.IsWhole) (arg3 : Memref sig .tc .vmem S768x64 .f32) (harg3 : arg3.IsWhole) (arg4 : Memref sig .tc .vmem S768x64 .f32) (harg4 : arg4.IsWhole) (arg5 : Memref sig .tc .vmem S768x64 .f32) (harg5 : arg5.IsWhole) (arg6 : Memref sig .tc .vmem S1x256x64 .f32) (harg6 : arg6.IsWhole) (arg7 : Memref sig .tc .vmem S64x2048 .f32) (harg7 : arg7.IsWhole) (arg8 : Memref sig .tc .vmem S2048x64 .f32) (harg8 : arg8.IsWhole) (hc0 : cond0_0 i) (x0 : Vec F S1x2048x768 .f32) (x1 : Vec F S768x64 .f32) (x2 : Vec F S768x64 .f32) (x3 : Vec F S768x64 .f32) :
    out0_A_4 c i arg2 harg2 arg3 harg3 arg4 harg4 arg5 harg5 arg6 harg6 arg7 harg7 arg8 harg8 hc0 x0 x1 x2 x3 = k0_pay1 (k0_pay5 i (queryRows i x0) x1 (k0_pay3 x0 x2) (k0_pay4 x0 x3)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  refine (View.canon_unit_zero (S := S1x256x64) hz3 _ _).trans ?_
  rw [View.readCov_unit_zero (S := S64x2048) _ hz2, View.readCov_unit_zero (S := S2048x64) _ hz2]
  simp only [View.readAt_eq_ld, harg2.read_unread, harg3.read_unread, harg4.read_unread, harg5.read_unread,
    View.ld_unit_zero (S := S1x2048x768) hz3, View.ld_unit_zero (S := S768x64) hz2]
  rfl

/-- Another tile: the output block is the tile of results over the tables the tile before left. -/
theorem out_B (c : Dev nD) (i : grid0.Coords) (arg2 : Memref sig .tc .vmem S1x2048x768 .f32) (harg2 : arg2.IsWhole) (arg3 : Memref sig .tc .vmem S768x64 .f32) (harg3 : arg3.IsWhole) (arg4 : Memref sig .tc .vmem S768x64 .f32) (harg4 : arg4.IsWhole) (arg5 : Memref sig .tc .vmem S768x64 .f32) (harg5 : arg5.IsWhole) (arg6 : Memref sig .tc .vmem S1x256x64 .f32) (harg6 : arg6.IsWhole) (arg7 : Memref sig .tc .vmem S64x2048 .f32) (harg7 : arg7.IsWhole) (arg8 : Memref sig .tc .vmem S2048x64 .f32) (harg8 : arg8.IsWhole) (hc0 : ¬cond0_0 i) (x0 : Vec F S1x2048x768 .f32) (x1 : Vec F S768x64 .f32) (x2 : Vec F S768x64 .f32) (x3 : Vec F S768x64 .f32) (xs0 : Vec F S64x2048 .f32) (xs1 : Vec F S2048x64 .f32) :
    out0_B_4 c i arg2 harg2 arg3 harg3 arg4 harg4 arg5 harg5 arg6 harg6 arg7 harg7 arg8 harg8 hc0 x0 x1 x2 x3 xs0 xs1 = k0_pay1 (k0_pay5 i (queryRows i x0) x1 xs0 xs1) := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  refine (View.canon_unit_zero (S := S1x256x64) hz3 _ _).trans ?_
  simp only [View.readAt_eq_ld, harg2.read_unread, harg3.read_unread, harg7.read_unread, harg8.read_unread,
    View.ld_unit_zero (S := S64x2048) hz2, View.ld_unit_zero (S := S2048x64) hz2, View.ld_unit_zero (S := S768x64) hz2]
  rfl

end Cert.KernelIdeal.Pieces

end
-- ==== Proof.KernelBlocks.lean ====
/-
  The windows' blocks, as functions of the arrays the region finds.

  The grid has 64 points, point t being tile t % 8 of batch t / 8. The input window's block at point t is batch t / 8
  of x, all 2048 rows; each weight window's block is its whole [768, 64] array at every point; the output window's
  block at point t is rows (t % 8) * 256 .. (t % 8) * 256 + 255 of batch t / 8. The three weight arrays the region
  finds are the transposes of the three weight arguments.
-/
import proofs.«159955_j59356448031312_2_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The index maps and the grid's coordinates at every point (decided over the 64 points). -/
theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem tileOf : ∀ t : Fin cfg0.N, (grid0.coords t 1).val = t.val % 8 :=
  (by decide +kernel : ∀ t : Fin grid0.N, _)

/-- Batch b of a [8, 2048, 768] array as a [1, 2048, 768] block (b is read modulo 8, so that it is a plain number). -/
def batchRows {α : Type} (X : S8x2048x768.Idx → α) (b : Nat) : S1x2048x768.Idx → α :=
  fun y => X (ix3 (⟨b % 8, Nat.mod_lt _ (by decide)⟩ : Fin 8) (y 1) (y 2))

/-- The input window's block at point t is batch t / 8 of the input array. -/
theorem xblock_eq (c : Dev nD) (t : Fin cfg0.N) :
    (iblk m c 0 t : Vec F S1x2048x768 .f32) = batchRows (V m c main_arg0) (t.val / 8) := by
  have hN : t.val < 64 := lt_of_lt_of_eq t.isLt (show cfg0.N = 64 from N_0)
  obtain ⟨h0, h1, h2⟩ := idx0 t
  funext y
  unfold iblk batchRows
  rw [View.read_apply]
  show V m c main_arg0 _ = V m c main_arg0 _
  congr 1
  funext a
  apply Fin.ext
  have hy0 : (y 0).val < 1 := (y 0).isLt
  match a with
  | ⟨0, _⟩ => show win0_0.index t 0 * 1 + 1 * (y 0).val = (t.val / 8) % 8; rw [h0]; omega
  | ⟨1, _⟩ => show win0_0.index t 1 * 2048 + 1 * (y 1).val = (y 1).val; rw [h1]; omega
  | ⟨2, _⟩ => show win0_0.index t 2 * 768 + 1 * (y 2).val = (y 2).val; rw [h2]; omega

/-- Each weight window's block is its whole array. -/
theorem wq_block_eq (c : Dev nD) (t : Fin cfg0.N) : (iblk m c 1 t : Vec F S768x64 .f32) = V m c main_v0 := by
  obtain ⟨h0, h1⟩ := idx1 t
  funext y
  unfold iblk
  rw [View.read_apply]
  show V m c main_v0 _ = V m c main_v0 _
  congr 1
  funext a
  apply Fin.ext
  match a with
  | ⟨0, _⟩ => show win0_1.index t 0 * 768 + 1 * (y 0).val = (y 0).val; rw [h0]; omega
  | ⟨1, _⟩ => show win0_1.index t 1 * 64 + 1 * (y 1).val = (y 1).val; rw [h1]; omega

theorem wk_block_eq (c : Dev nD) (t : Fin cfg0.N) : (iblk m c 2 t : Vec F S768x64 .f32) = V m c main_v1 := by
  obtain ⟨h0, h1⟩ := idx2 t
  funext y
  unfold iblk
  rw [View.read_apply]
  show V m c main_v1 _ = V m c main_v1 _
  congr 1
  funext a
  apply Fin.ext
  match a with
  | ⟨0, _⟩ => show win0_2.index t 0 * 768 + 1 * (y 0).val = (y 0).val; rw [h0]; omega
  | ⟨1, _⟩ => show win0_2.index t 1 * 64 + 1 * (y 1).val = (y 1).val; rw [h1]; omega

theorem wv_block_eq (c : Dev nD) (t : Fin cfg0.N) : (iblk m c 3 t : Vec F S768x64 .f32) = V m c main_v2 := by
  obtain ⟨h0, h1⟩ := idx3 t
  funext y
  unfold iblk
  rw [View.read_apply]
  show V m c main_v2 _ = V m c main_v2 _
  congr 1
  funext a
  apply Fin.ext
  match a with
  | ⟨0, _⟩ => show win0_3.index t 0 * 768 + 1 * (y 0).val = (y 0).val; rw [h0]; omega
  | ⟨1, _⟩ => show win0_3.index t 1 * 64 + 1 * (y 1).val = (y 1).val; rw [h1]; omega

/-- The weight arrays the region finds: the transposes of the weight arguments. -/
theorem wq_array (c : Dev nD) : (V m c main_v0 : S768x64.Idx → Elt F .f32)
    = transpose S768x64 [1, 0] (m ((c : Thread nD τ).loc main_arg2)) transposes_S64x768_S768x64_1_0 := by
  dsimp only [Gen.V, Gen.hostOps0]; after_results
theorem wk_array (c : Dev nD) : (V m c main_v1 : S768x64.Idx → Elt F .f32)
    = transpose S768x64 [1, 0] (m ((c : Thread nD τ).loc main_arg1)) transposes_S64x768_S768x64_1_0 := by
  dsimp only [Gen.V, Gen.hostOps0]; after_results
theorem wv_array (c : Dev nD) : (V m c main_v2 : S768x64.Idx → Elt F .f32)
    = transpose S768x64 [1, 0] (m ((c : Thread nD τ).loc main_arg3)) transposes_S64x768_S768x64_1_0 := by
  dsimp only [Gen.V, Gen.hostOps0]; after_results

end Cert.KernelIdeal.Blocks

end
-- ==== Proof.KernelCarry.lean ====
/-
  What every grid point leaves: the two tables carried from tile to tile, and the output block.

  By induction over the 64 points. At the first tile of a batch (t % 8 = 0) the body stores the key table (transposed)
  and the value table of batch t / 8; at every other tile it stores neither, and the tables are those of the point
  before, which belongs to the same batch. So after every point t the tables are those of batch t / 8, and the output
  block is the tile of results of tile t % 8 over them.
-/
import proofs.«159955_j59356448031312_2_alg».proof.Proof.KernelPieces
import proofs.«159955_j59356448031312_2_alg».proof.Proof.KernelBlocks

set_option maxRecDepth 16384

noncomputable section

namespace Cert.KernelIdeal.Carry

open Cert.KernelIdeal Cert.KernelIdeal.Gen Idealize.ShloMosaic Idealize.ShloMosaic.TcCoe Idealize.SL.Sem
open Cert.KernelIdeal.Pieces Cert.KernelIdeal.Blocks

variable {F : FTy → Type} [FloatOps F]
variable (m : (ℓ : Loc nD τ sig) → Buf (Elt F) ℓ)

/-- The transposed key table of batch b. -/
def keysT (c : Dev nD) (b : Nat) : Vec F S64x2048 .f32 := k0_pay3 (batchRows (V m c main_arg0) b) (V m c main_v1)

/-- The value table of batch b. -/
def values (c : Dev nD) (b : Nat) : Vec F S2048x64 .f32 := k0_pay4 (batchRows (V m c main_arg0) b) (V m c main_v2)

/-- The output block of the tile with grid coordinates i, in batch b. -/
def block (c : Dev nD) (i : grid0.Coords) (b : Nat) : Vec F S1x256x64 .f32 :=
  k0_pay1 (k0_pay5 i (queryRows i (batchRows (V m c main_arg0) b)) (V m c main_v0) (keysT m c b) (values m c b))

/-- What point n leaves: its output block, and the two tables of its batch. -/
def left (c : Dev nD) (n : ℕ) (hn : n < cfg0.N) : Vec F S1x256x64 .f32 × Vec F S64x2048 .f32 × Vec F S2048x64 .f32 :=
  (block m c (grid0.coords ⟨n, hn⟩) (n / 8), keysT m c (n / 8), values m c (n / 8))

/-- At the first tile of a batch. -/
theorem left_first (c : Dev nD) (t : Fin cfg0.N) (h0 : t.val % 8 = 0) : outsAt0 m c t.val t.isLt = left m c t.val t.isLt := by
  have h1 : out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) = block m c (grid0.coords t) (t.val / 8) := by
    rw [out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
    unfold block keysT values
    rw [xblock_eq m c t, wq_block_eq m c t, wk_block_eq m c t, wv_block_eq m c t]
  have h2 : sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) = keysT m c (t.val / 8) := by
    rw [keysT_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
    unfold keysT
    rw [xblock_eq m c t, wk_block_eq m c t]
  have h3 : sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) = values m c (t.val / 8) := by
    rw [values_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
    unfold values
    rw [xblock_eq m c t, wv_block_eq m c t]
  rw [outsAt0_A m c t h0, h1, h2, h3]
  rfl

/-- After every point: its output block and its batch's tables. -/
theorem left_eq (c : Dev nD) : ∀ (n : ℕ) (hn : n < cfg0.N), outsAt0 m c n hn = left m c n hn := by
  intro n
  induction n with
  | zero => intro hn; exact left_first m c ⟨0, hn⟩ (Nat.zero_mod _)
  | succ n ih =>
    intro hn
    by_cases h0 : (n + 1) % 8 = 0
    · exact left_first m c ⟨n + 1, hn⟩ h0
    · have e : n / 8 = (n + 1) / 8 := by omega
      have hp : outsAt0 m c ((⟨n + 1, hn⟩ : Fin cfg0.N).val - 1) (Nat.lt_of_le_of_lt (Nat.sub_le _ _) (⟨n + 1, hn⟩ : Fin cfg0.N).isLt)
          = left m c n (Nat.lt_of_succ_lt hn) := ih (Nat.lt_of_succ_lt hn)
      have h1 : out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (keysT m c ((n + 1) / 8)) (values m c ((n + 1) / 8))
          = block m c (grid0.coords ⟨n + 1, hn⟩) ((n + 1) / 8) := by
        rw [out_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (keysT m c ((n + 1) / 8)) (values m c ((n + 1) / 8))]
        unfold block
        rw [xblock_eq m c ⟨n + 1, hn⟩, wq_block_eq m c ⟨n + 1, hn⟩]
      rw [outsAt0_B m c ⟨n + 1, hn⟩ h0, hp]
      unfold left sout0_B_0 sout0_B_1
      dsimp only
      rw [e, h1]

end Cert.KernelIdeal.Carry

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibRowSoftmax.lean ====
/-
  The softmax of each row of a matrix, read at an entry.

  For a row of scores s : Fin b → EReal and an accumulator value `bot` the row's maximum is the fold of max from `bot`
  over the scores, and the row's share at column j is exp (s j − maximum) divided by the sum over the columns k of
  exp (s k − maximum). On the extended reals the usual arrangement of a softmax over the second axis of an [a, b]
  array — the maximum over the axis kept as an [a, 1] column and broadcast back, the difference, its exponential, the
  sum of the exponentials over the axis kept and broadcast back likewise, the quotient — reads, at (r, c), the share of
  row r at column c. Nothing is assumed finite: both sides are the same operations of the extended reals.

  Also: taking the maximum with the accumulator value once more changes nothing, the fold being already above it.
-/
import proofs.«159955_j59356448031312_2_alg».proof.Proof.LibKeepdims
import proofs.«159955_j59356448031312_2_alg».proof.Proof.LibRowMax

noncomputable section

namespace RowSoftmax

open Idealize.ShloMosaic Idealize.ShloMosaic.ValueIdx

/-- A row's maximum: the fold of max, from the accumulator value, over its scores. -/
def rowMax {b : ℕ} (bot : EReal) (s : Fin b → EReal) : EReal := (Finset.univ : Finset (Fin b)).fold max bot s

/-- A row's share at column j: its shifted exponential over the sum of the row's shifted exponentials. -/
def share {b : ℕ} (bot : EReal) (s : Fin b → EReal) (j : Fin b) : EReal :=
  Ideal.div (Ideal.exp (s j - rowMax bot s)) (∑ k : Fin b, Ideal.exp (s k - rowMax bot s))

/-- The fold of max from `bot` is above `bot`: one more max with it is the fold. -/
theorem max_rowMax {b : ℕ} (bot : EReal) (s : Fin b → EReal) : max bot (rowMax bot s) = rowMax bot s :=
  max_eq_right ((Finset.le_fold_max bot).mpr (Or.inl le_rfl))

/-- The softmax over the second axis of an [a, b] array, as a kernel arranges it with kept axes, read at (r, c). -/
theorem softmax_rows_apply {a b : ℕ} (v : FVec Ideal (⟨2, ![a, b]⟩ : Shape) .f32) (accM accS : BitVec 32)
    (h : (⟨2, ![a, b]⟩ : Shape).Reduces [1] ⟨1, ![a]⟩) (hφ hφ' : FKind.Formats .f32)
    (hM : accM = FKind.maximumf.neutral .f32 hφ) (hS : accS = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (c : Fin b) :
    divf (exp (subf v (broadcastTo ⟨2, ![a, b]⟩ (shapeCast ⟨2, ![a, 1]⟩ (multiReduction .maximumf [1] ⟨1, ![a]⟩ v accM h hφ hM) hc) hb)))
        (broadcastTo ⟨2, ![a, b]⟩ (shapeCast ⟨2, ![a, 1]⟩
          (multiReduction .add [1] ⟨1, ![a]⟩
            (exp (subf v (broadcastTo ⟨2, ![a, b]⟩ (shapeCast ⟨2, ![a, 1]⟩ (multiReduction .maximumf [1] ⟨1, ![a]⟩ v accM h hφ hM) hc) hb)))
            accS h hφ' hS) hc) hb) (ix2 r c)
      = share (Ideal.ofBits .f32 accM) (fun k => v (ix2 r k)) c := by
  have hmx : ∀ (r' : Fin a) (c' : Fin b),
      broadcastTo ⟨2, ![a, b]⟩ (shapeCast ⟨2, ![a, 1]⟩ (multiReduction .maximumf [1] ⟨1, ![a]⟩ v accM h hφ hM) hc) hb (ix2 r' c')
        = rowMax (Ideal.ofBits .f32 accM) (fun k => v (ix2 r' k)) := fun r' c' =>
    (Keepdims.broadcastTo_a1_ab_apply _ hb r' c').trans
      ((Keepdims.shapeCast_a_a1_apply _ hc r' 0).trans (RowMax.rowMax_apply v accM h hφ hM r'))
  have hp : ∀ (r' : Fin a) (c' : Fin b),
      exp (subf v (broadcastTo ⟨2, ![a, b]⟩ (shapeCast ⟨2, ![a, 1]⟩ (multiReduction .maximumf [1] ⟨1, ![a]⟩ v accM h hφ hM) hc) hb)) (ix2 r' c')
        = Ideal.exp (v (ix2 r' c') - rowMax (Ideal.ofBits .f32 accM) (fun k => v (ix2 r' k))) := fun r' c' =>
    congrArg (fun x => Ideal.exp (v (ix2 r' c') - x)) (hmx r' c')
  refine (divf_apply _ _ _).trans ?_
  rw [hp r c, Keepdims.broadcastTo_a1_ab_apply, Keepdims.rowSumKeep_apply]
  unfold share
  exact congrArg (Ideal.div _) (Finset.sum_congr rfl fun k _ => hp r k)

end RowSoftmax

end
-- ==== Proof.Attention.lean ====
/-
  Causal single-head attention on the extended reals, index by index.

  For an input x : [8, 2048, 768] and three weight matrices Wk, Wq, Wv : [64, 768] the projections are
      K(b, t, h) = sum over c of x(b, t, c) * Wk(h, c),   and Q, V likewise;
  the score of query row t against key row k of batch b is the sum over h of Q(b, t, h) * K(b, k, h) when k <= t, and a
  fixed large negative value otherwise; each row of scores is turned into shares (the shifted exponential of a score
  over the sum of the row's shifted exponentials, the shift being the row's maximum); the result at (b, t, h) is the sum
  over k of the share of k in row t times V(b, k, h).

  Also here: the comparison behind the mask, on 32-bit words. For numbers below 2^31 the signed comparison of their
  words is the comparison of the numbers, and the word of q * 256 + r is the word of q times 256 plus the word of r.
-/
import proofs.«159955_j59356448031312_2_alg».proof.Proof.LibRowSoftmax
import Idealize.ShloMosaic.Lib.ValueIdx

noncomputable section

namespace Attention

open Idealize.ShloMosaic Idealize.ShloMosaic.ValueIdx

/-- The value every row maximum starts from: minus infinity. -/
def negInf : EReal := Ideal.ofBits .f32 0xFF800000#32

/-- The value a masked score is replaced by (the same 32-bit pattern in both programs; it is never evaluated). -/
def fill : EReal := Ideal.ofBits .f32 0xF149F2CA#32

/-- A projection: row t of batch b of x against row h of W. -/
def proj (x : (⟨3, ![8, 2048, 768]⟩ : Shape).Idx → EReal) (W : (⟨2, ![64, 768]⟩ : Shape).Idx → EReal)
    (b : Fin 8) (t : Fin 2048) (h : Fin 64) : EReal :=
  ∑ c : Fin 768, x (ix3 b t c) * W (ix2 h c)

/-- The masked score of query row t against key row k. -/
def score (x : (⟨3, ![8, 2048, 768]⟩ : Shape).Idx → EReal) (Wk Wq : (⟨2, ![64, 768]⟩ : Shape).Idx → EReal)
    (b : Fin 8) (t k : Fin 2048) : EReal :=
  if k.val ≤ t.val then ∑ h : Fin 64, proj x Wq b t h * proj x Wk b k h else fill

/-- The attention output at (b, t, h). -/
def out (x : (⟨3, ![8, 2048, 768]⟩ : Shape).Idx → EReal) (Wk Wq Wv : (⟨2, ![64, 768]⟩ : Shape).Idx → EReal)
    (b : Fin 8) (t : Fin 2048) (h : Fin 64) : EReal :=
  ∑ k : Fin 2048, RowSoftmax.share negInf (fun k' => score x Wk Wq b t k') k * proj x Wv b k h

/-- The whole result array. -/
def result (x : (⟨3, ![8, 2048, 768]⟩ : Shape).Idx → EReal) (Wk Wq Wv : (⟨2, ![64, 768]⟩ : Shape).Idx → EReal) :
    (⟨3, ![8, 2048, 64]⟩ : Shape).Idx → EReal :=
  fun i => out x Wk Wq Wv (i 0) (i 1) (i 2)

/-! ## The mask's comparison on words -/

/-- For numbers below 2^31 the signed order of their 32-bit words is the order of the numbers. -/
theorem sle_words (a b : Nat) (ha : a < 2 ^ 31) (hb : b < 2 ^ 31) :
    (BitVec.ofNat 32 a).sle (BitVec.ofNat 32 b) = decide (a ≤ b) := by
  have toInt_word : ∀ v : Nat, v < 2 ^ 31 → (BitVec.ofNat 32 v).toInt = v := fun v hv => by
    rw [BitVec.toInt_eq_toNat_cond, BitVec.toNat_ofNat]
    have : v % 2 ^ 32 = v := Nat.mod_eq_of_lt (by omega)
    rw [this]
    split
    · rfl
    · omega
  rw [BitVec.sle_eq_decide, toInt_word a ha, toInt_word b hb]
  simp

/-- The word of q * 256 + r, built as the kernel builds it. -/
theorem row_word (q r : Nat) :
    IntOp.addi (Scalar.muli (BitVec.ofNat 32 q) 256#32) (BitVec.ofNat 32 r) = BitVec.ofNat 32 (q * 256 + r) := by
  show BitVec.ofNat 32 q * 256#32 + BitVec.ofNat 32 r = _
  rw [show (256#32 : BitVec 32) = BitVec.ofNat 32 256 from rfl, ← BitVec.ofNat_mul, ← BitVec.ofNat_add]

/-- A selection on the comparison's bit is a choice on the comparison. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

end Attention

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.KernelTile.lean ====
/-
  The kernel body's arithmetic read at an index, on the extended reals.

  The body forms, from a batch's rows xb : [1, 2048, 768] and transposed weights [768, 64]:
    * the key table transposed, [64, 2048]: entry (h, k) is the sum over c of xb(0, k, c) * wk(c, h);
    * the value table, [2048, 64]: entry (k, h) is the sum over c of xb(0, k, c) * wv(c, h);
    * from 256 query rows xq : [1, 256, 768], the query weights, a key table kt and a value table v, the tile of
      results: entry (r, h) is the sum over k of the share of k in row r times v(k, h), where row r's scores are, at
      column k, the sum over h' of (sum over c of xq(0, r, c) * wq(c, h')) * kt(h', k) when k <= q * 256 + r (q the
      tile's number), and the fixed negative value otherwise.
  A change of float format is the identity here and a matrix product into the zero accumulator is a plain sum.
-/
import proofs.«159955_j59356448031312_2_alg».proof.Proof.Gen.KernelIdeal.Skeleton
import proofs.«159955_j59356448031312_2_alg».proof.Proof.Attention
import proofs.«159955_j59356448031312_2_alg».proof.Proof.LibPlainDot
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The batch's rows cast to a matrix and narrowed: entry (k, c) is the block's (0, k, c). -/
theorem rows_apply (xb : Vec Ideal S1x2048x768 .f32) (k : Fin 2048) (c : Fin 768) :
    k0_pay2 xb (ix2 k c) = xb (ix3 (0 : Fin 1) k c) := by
  unfold k0_pay2
  exact shapeCast_1ab_ab_apply xb shapeCasts_S1x2048x768_S2048x768 k c

/-- The key table, transposed: entry (h, k). -/
theorem keysT_apply (xb : Vec Ideal S1x2048x768 .f32) (wk : Vec Ideal S768x64 .f32) (h : Fin 64) (k : Fin 2048) :
    k0_pay3 xb wk (ix2 h k) = ∑ c : Fin 768, xb (ix3 (0 : Fin 1) k c) * wk (ix2 c h) := by
  unfold k0_pay3
  rw [shapeCast_self]
  refine (transpose_ix2_apply _ transposes_S2048x64_p1_0_S64x2048 h k).trans ?_
  refine (PlainDot.matmul_zero_apply 2048 768 64 none _ _ (ix2 k h)).trans ?_
  refine Finset.sum_congr rfl fun c _ => ?_
  show k0_pay2 xb (ix2 k c) * shapeCast S768x64 wk shapeCasts_S768x64_S768x64 (ix2 c h) = _
  rw [rows_apply, shapeCast_self]

/-- The value table: entry (k, h). -/
theorem values_apply (xb : Vec Ideal S1x2048x768 .f32) (wv : Vec Ideal S768x64 .f32) (k : Fin 2048) (h : Fin 64) :
    k0_pay4 xb wv (ix2 k h) = ∑ c : Fin 768, xb (ix3 (0 : Fin 1) k c) * wv (ix2 c h) := by
  unfold k0_pay4
  rw [shapeCast_self]
  refine (PlainDot.matmul_zero_apply 2048 768 64 none _ _ (ix2 k h)).trans ?_
  refine Finset.sum_congr rfl fun c _ => ?_
  show k0_pay2 xb (ix2 k c) * shapeCast S768x64 wv shapeCasts_S768x64_S768x64 (ix2 c h) = _
  rw [rows_apply, shapeCast_self]

/-- Row r's masked score at column k, in tile q. -/
def tileScore (q : Nat) (xq : Vec Ideal S1x256x768 .f32) (wq : Vec Ideal S768x64 .f32) (kt : Vec Ideal S64x2048 .f32)
    (r : Fin 256) (k : Fin 2048) : EReal :=
  if k.val ≤ q * 256 + r.val then
    ∑ h' : Fin 64, (∑ c : Fin 768, xq (ix3 (0 : Fin 1) r c) * wq (ix2 c h')) * kt (ix2 h' k)
  else Attention.fill

/-- The tile of results: entry (r, h). -/
theorem tile_apply (i : grid0.Coords) (xq : Vec Ideal S1x256x768 .f32) (wq : Vec Ideal S768x64 .f32)
    (kt : Vec Ideal S64x2048 .f32) (v : Vec Ideal S2048x64 .f32) (r : Fin 256) (h : Fin 64) :
    k0_pay5 i xq wq kt v (ix2 r h)
      = ∑ k : Fin 2048, RowSoftmax.share Attention.negInf (fun k' => tileScore (i 1).val xq wq kt r k') k * v (ix2 k h) := by
  unfold k0_pay5
  refine (PlainDot.matmul_zero_apply 256 2048 64 none _ _ (ix2 r h)).trans ?_
  refine Finset.sum_congr rfl fun k _ => ?_
  refine congrArg (· * v (ix2 k h)) ?_
  refine (RowSoftmax.softmax_rows_apply _ 0xFF800000#32 0x00000000#32 reduces_S256x2048_S256 (.inl rfl) (.inl rfl) rfl rfl
    shapeCasts_S256_S256x1 broadcasts_S256x1_S256x2048 r k).trans ?_
  refine congrArg (fun s => RowSoftmax.share Attention.negInf s k) (funext fun k' => ?_)
  rw [select_apply]
  have hm : cmpi .sge (addi (broadcast S256x2048 (Scalar.muli (BitVec.ofNat 32 (i 1).val) 256#32))
        (iota .tc S256x2048 32 [0] iota_S256x2048_d0_w32)) (iota .tc S256x2048 32 [1] iota_S256x2048_d1_w32) (ix2 r k')
      = BitVec.ofBool (decide (k'.val ≤ (i 1).val * 256 + r.val)) := by
    show IntOp.cmpi .sge (IntOp.addi (Scalar.muli (BitVec.ofNat 32 (i 1).val) 256#32)
        (iota .tc S256x2048 32 [0] iota_S256x2048_d0_w32 (ix2 r k'))) (iota .tc S256x2048 32 [1] iota_S256x2048_d1_w32 (ix2 r k')) = _
    rw [iota_single_apply, iota_single_apply, Attention.row_word]
    show BitVec.ofBool ((BitVec.ofNat 32 k'.val).sle (BitVec.ofNat 32 ((i 1).val * 256 + r.val))) = _
    have h1 : (i 1).val < 8 := (i 1).isLt
    have h2 := r.isLt
    have h3 := k'.isLt
    rw [Attention.sle_words _ _ (by omega) (by omega)]
  rw [hm, Attention.select_ofBool]
  unfold tileScore
  refine congrArg (fun a => if k'.val ≤ (i 1).val * 256 + r.val then a else Attention.fill) ?_
  refine (PlainDot.matmul_zero_apply 256 64 2048 none _ _ (ix2 r k')).trans ?_
  refine Finset.sum_congr rfl fun h' _ => ?_
  refine congrArg (· * kt (ix2 h' k')) ?_
  refine (PlainDot.matmul_zero_apply 256 768 64 none _ _ (ix2 r h')).trans ?_
  refine Finset.sum_congr rfl fun c _ => ?_
  show shapeCast S256x768 xq shapeCasts_S1x256x768_S256x768 (ix2 r c) * shapeCast S768x64 wq shapeCasts_S768x64_S768x64 (ix2 c h') = _
  rw [shapeCast_1ab_ab_apply, shapeCast_self]

/-- The tile cast to the output block's shape: entry (0, r, h) is the tile's (r, h). -/
theorem block_apply (tile : FVec Ideal S256x64 .f32) (u : Fin 1) (r : Fin 256) (h : Fin 64) :
    k0_pay1 tile (ix3 u r h) = tile (ix2 r h) := by
  unfold k0_pay1
  exact shapeCast_ab_1ab_apply tile shapeCasts_S256x64_S1x256x64 u r h

end Cert.KernelIdeal.Tile

end
-- ==== Proof.KernelValue.lean ====
/-
  The kernel's result array, at the ideal instance, is the attention of the specification.

  After point t the carried tables are those of batch t / 8: the key table's entry (h, k) is the specification's key
  projection of row k, the value table's entry (k, h) its value projection (the weight arrays the region finds being
  the transposes of the weight arguments). The 256 query rows of tile q are rows q * 256 + r of the batch, so the
  output block of point t holds, at (0, r, h), the specification's output at (t / 8, (t % 8) * 256 + r, h). The 64
  output blocks tile the result array, each written back once; so the array after the run is the specification's.
-/
import proofs.«159955_j59356448031312_2_alg».proof.Proof.KernelCarry
import proofs.«159955_j59356448031312_2_alg».proof.Proof.KernelTile
import proofs.«159955_j59356448031312_2_alg».proof.Proof.Gen.KernelIdeal.Value

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Cert.KernelIdeal.Pieces Cert.KernelIdeal.Blocks Cert.KernelIdeal.Carry
open Idealize.ShloMosaic.Pipeline (Dat)

variable (m : (ℓ : Loc nD τ sig) → Buf (Elt Ideal) ℓ) (ρ : Dev nD → PrngReg)

/-- The specification's result of the four argument arrays as launched. -/
def spec (c : Dev nD) : S8x2048x64.Idx → EReal :=
  Attention.result (m ((c : Thread nD τ).loc main_arg0)) (m ((c : Thread nD τ).loc main_arg1))
    (m ((c : Thread nD τ).loc main_arg2)) (m ((c : Thread nD τ).loc main_arg3))

/-- A batch's row, as the region finds the input array. -/
theorem batch_apply (c : Dev nD) (b : Nat) (u : Fin 1) (t : Fin 2048) (k : Fin 768) :
    batchRows (V m c main_arg0) b (ix3 u t k)
      = m ((c : Thread nD τ).loc main_arg0) (ix3 (⟨b % 8, Nat.mod_lt _ (by decide)⟩ : Fin 8) t k) := by
  rw [V_main_arg0]; rfl

/-- The weight arrays the region finds, read at (column, row) of the arguments. -/
theorem wq_apply (c : Dev nD) (k : Fin 768) (h : Fin 64) :
    (V m c main_v0 : S768x64.Idx → EReal) (ix2 k h) = m ((c : Thread nD τ).loc main_arg2) (ix2 h k) := by
  rw [wq_array]; exact transpose_ix2_apply _ transposes_S64x768_S768x64_1_0 k h
theorem wk_apply (c : Dev nD) (k : Fin 768) (h : Fin 64) :
    (V m c main_v1 : S768x64.Idx → EReal) (ix2 k h) = m ((c : Thread nD τ).loc main_arg1) (ix2 h k) := by
  rw [wk_array]; exact transpose_ix2_apply _ transposes_S64x768_S768x64_1_0 k h
theorem wv_apply (c : Dev nD) (k : Fin 768) (h : Fin 64) :
    (V m c main_v2 : S768x64.Idx → EReal) (ix2 k h) = m ((c : Thread nD τ).loc main_arg3) (ix2 h k) := by
  rw [wv_array]; exact transpose_ix2_apply _ transposes_S64x768_S768x64_1_0 k h

/-- The carried key table of batch b: entry (h, k) is the key projection of row k. -/
theorem keysT_apply (c : Dev nD) (b : Nat) (h : Fin 64) (k : Fin 2048) :
    keysT m c b (ix2 h k) = Attention.proj (m ((c : Thread nD τ).loc main_arg0)) (m ((c : Thread nD τ).loc main_arg1))
      (⟨b % 8, Nat.mod_lt _ (by decide)⟩ : Fin 8) k h := by
  unfold keysT Attention.proj
  refine (Tile.keysT_apply _ _ h k).trans (Finset.sum_congr rfl fun c' _ => ?_)
  rw [batch_apply, wk_apply]

/-- The carried value table of batch b: entry (k, h) is the value projection of row k. -/
theorem values_apply (c : Dev nD) (b : Nat) (k : Fin 2048) (h : Fin 64) :
    values m c b (ix2 k h) = Attention.proj (m ((c : Thread nD τ).loc main_arg0)) (m ((c : Thread nD τ).loc main_arg3))
      (⟨b % 8, Nat.mod_lt _ (by decide)⟩ : Fin 8) k h := by
  unfold values Attention.proj
  refine (Tile.values_apply _ _ k h).trans (Finset.sum_congr rfl fun c' _ => ?_)
  rw [batch_apply, wv_apply]

/-- Row r of tile i's query rows is row (tile number) * 256 + r of the batch's block. -/
theorem queryRows_apply (i : grid0.Coords) (xb : Vec Ideal S1x2048x768 .f32) (u : Fin 1) (r : Fin 256) (k : Fin 768)
    (hr : (i 1).val * 256 + r.val < 2048) :
    queryRows i xb (ix3 u r k) = xb (ix3 (0 : Fin 1) (⟨(i 1).val * 256 + r.val, hr⟩ : Fin 2048) k) := by
  unfold queryRows View.ld
  refine congrArg xb (funext fun a => Fin.ext ?_)
  have hq : (i 1).val < 8 := (i 1).isLt
  have hu : u.val = 0 := by omega
  match a with
  | ⟨0, _⟩ => show 0 + 1 * u.val = 0; omega
  | ⟨1, _⟩ =>
    show (BitVec.ofNat 32 (i 1).val * 256#32).toNat + 1 * r.val = (i 1).val * 256 + r.val
    rw [BitVec.toNat_mul, BitVec.toNat_ofNat, BitVec.toNat_ofNat]
    omega
  | ⟨2, _⟩ => show 0 + 1 * k.val = k.val; omega

/-- The output block of tile i in batch b: entry (0, r, h) is the specification's output at row (tile) * 256 + r. -/
theorem block_apply (c : Dev nD) (i : grid0.Coords) (b : Nat) (u : Fin 1) (r : Fin 256) (h : Fin 64)
    (hr : (i 1).val * 256 + r.val < 2048) :
    block m c i b (ix3 u r h)
      = Attention.out (m ((c : Thread nD τ).loc main_arg0)) (m ((c : Thread nD τ).loc main_arg1))
          (m ((c : Thread nD τ).loc main_arg2)) (m ((c : Thread nD τ).loc main_arg3))
          (⟨b % 8, Nat.mod_lt _ (by decide)⟩ : Fin 8) (⟨(i 1).val * 256 + r.val, hr⟩ : Fin 2048) h := by
  unfold block Attention.out
  rw [Tile.block_apply, Tile.tile_apply]
  refine Finset.sum_congr rfl fun k _ => ?_
  rw [values_apply]
  refine congrArg (· * _) (congrArg (fun s => RowSoftmax.share Attention.negInf s k) (funext fun k' => ?_))
  unfold Tile.tileScore Attention.score
  refine congrArg (fun a => if k'.val ≤ (i 1).val * 256 + r.val then a else Attention.fill) ?_
  refine Finset.sum_congr rfl fun h' _ => ?_
  rw [keysT_apply]
  refine congrArg (· * _) ?_
  unfold Attention.proj
  refine Finset.sum_congr rfl fun c' _ => ?_
  rw [queryRows_apply i _ 0 r c' hr, batch_apply, wq_apply]

/-- What point t writes back is block t of the specification's result. -/
theorem flushed_eq (c : Dev nD) (t : Fin cfg0.N) :
    (dats m 0 c).flushed 4 t = ((cfg0.win 4).blk t).view.read (Elt Ideal) (spec m c) := by
  have hN : t.val < 64 := lt_of_lt_of_eq t.isLt (show cfg0.N = 64 from N_0)
  obtain ⟨e0, e1, e2⟩ := idx4 t
  have hq := tileOf t
  rw [Value.flushed4, left_eq]
  funext y
  obtain ⟨u, r, h, rfl⟩ : ∃ (u : Fin 1) (r : Fin 256) (h : Fin 64), y = ix3 u r h := ⟨y 0, y 1, y 2, eq_ix3 y⟩
  have hr : (grid0.coords t 1).val * 256 + r.val < 2048 := by have := r.isLt; omega
  show block m c (grid0.coords t) (t.val / 8) (ix3 u r h) = spec m c (((cfg0.win 4).blk t).view.emb (ix3 u r h))
  rw [block_apply m c (grid0.coords t) (t.val / 8) u r h hr]
  unfold spec Attention.result
  have hu : u.val = 0 := by omega
  have i0 : (((cfg0.win 4).blk t).view.emb (ix3 u r h)) 0 = (⟨t.val / 8 % 8, Nat.mod_lt _ (by decide)⟩ : Fin 8) :=
    Fin.ext (by show win0_4.index t 0 * 1 + 1 * u.val = t.val / 8 % 8; rw [e0]; omega)
  have i1 : (((cfg0.win 4).blk t).view.emb (ix3 u r h)) 1 = (⟨(grid0.coords t 1).val * 256 + r.val, hr⟩ : Fin 2048) :=
    Fin.ext (by show win0_4.index t 1 * 256 + 1 * r.val = (grid0.coords t 1).val * 256 + r.val; rw [e1, hq]; omega)
  have i2 : (((cfg0.win 4).blk t).view.emb (ix3 u r h)) 2 = h :=
    Fin.ext (by show win0_4.index t 2 * 64 + 1 * h.val = h.val; rw [e2]; omega)
  rw [i0, i1, i2]

/-- An index of the result array is in point t's block iff each coordinate is in the block's range on its axis. -/
theorem mem_blk (t : Fin cfg0.N) (i : S8x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v3).slice (win0_4.rect t)).set ↔ _
  rw [View.set_slice_whole, Rect.mem_set_unit]
  exact Iff.rfl

/-- Every index of the result array is in the block of the point (batch) * 8 + (row / 256). -/
theorem cover (i : S8x2048x64.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 64 := (i 2).isLt
  have hN : cfg0.N = 64 := N_0
  let t : Fin cfg0.N := ⟨(i 0).val * 8 + (i 1).val / 256, by rw [hN]; omega⟩
  have ht : t.val = (i 0).val * 8 + (i 1).val / 256 := rfl
  obtain ⟨e0, e1, e2⟩ := idx4 t
  refine ⟨t, flush0_4 t, ?_⟩
  rw [mem_blk]
  intro a
  match a with
  | ⟨0, _⟩ => show win0_4.index t 0 * 1 ≤ (i 0).val ∧ (i 0).val < win0_4.index t 0 * 1 + 1; rw [e0, ht]; omega
  | ⟨1, _⟩ => show win0_4.index t 1 * 256 ≤ (i 1).val ∧ (i 1).val < win0_4.index t 1 * 256 + 256; rw [e1, ht]; omega
  | ⟨2, _⟩ => show win0_4.index t 2 * 64 ≤ (i 2).val ∧ (i 2).val < win0_4.index t 2 * 64 + 64; rw [e2]; omega

/-- The result array after the run is the specification's result. -/
theorem final (c : Dev nD) : (dats m 0 c).arrAt 4 cfg0.N = spec m c :=
  (dats m 0 c).arrAt_eq_of_cover 4 (spec m c) (fun t _ => flushed_eq m c t) (cover)

/-- The run: the result array at the specification's result, the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.ReferenceValue.lean ====
/-
  The reference program's result, stage by stage, is the attention of the specification.

  Its three projections are the specification's projections; its batched product of queries and keys, masked by the
  lower triangle (row index plus zero at least the column index, on 32-bit words) with the fixed negative value, is the
  masked score; the maximum over the last axis from minus infinity, with minus infinity once more, is the row's
  maximum; the exponentials, their sum from zero, and the quotient are the row's shares; the last batched product is
  the output. Every step is the same operation of the extended reals on both sides.
-/
import proofs.«159955_j59356448031312_2_alg».proof.Proof.Gen.ReferenceIdeal.Read
import proofs.«159955_j59356448031312_2_alg».proof.Proof.Attention
import Idealize.ShloMosaic.PureOps.Reduce

noncomputable section

namespace Cert.ReferenceIdeal.RefValue

open Cert.ReferenceIdeal Cert.ReferenceIdeal.Read Idealize.ShloMosaic Idealize.ShloMosaic.ValueIdx

/-- The key projection. -/
theorem keys_apply (x0 : (⟨S8x2048x768, .f32⟩ : BufTy).Contents (Elt Ideal)) (x1 : (⟨S64x768, .f32⟩ : BufTy).Contents (Elt Ideal)) (b : Fin 8) (t : Fin 2048) (h : Fin 64) :
    val_main_v0 (F := Ideal) x0 x1 (ix3 b t h) = Attention.proj x0 x1 b t h := by
  rw [val_main_v0_apply]
  unfold Attention.proj
  refine Finset.sum_congr rfl fun c _ => ?_
  rw [show lidx_main_v0 (ix3 b t h) c = ix3 b t c from funext fun a => Fin.ext (by match a with | ⟨0, _⟩ => rfl | ⟨1, _⟩ => rfl | ⟨2, _⟩ => rfl),
    show ridx_main_v0 (ix3 b t h) c = ix2 h c from funext fun a => Fin.ext (by match a with | ⟨0, _⟩ => rfl | ⟨1, _⟩ => rfl)]

/-- The query projection. -/
theorem queries_apply (x0 : (⟨S8x2048x768, .f32⟩ : BufTy).Contents (Elt Ideal)) (x2 : (⟨S64x768, .f32⟩ : BufTy).Contents (Elt Ideal)) (b : Fin 8) (t : Fin 2048) (h : Fin 64) :
    val_main_v1 (F := Ideal) x0 x2 (ix3 b t h) = Attention.proj x0 x2 b t h := by
  rw [val_main_v1_apply]
  unfold Attention.proj
  refine Finset.sum_congr rfl fun c _ => ?_
  rw [show lidx_main_v1 (ix3 b t h) c = ix3 b t c from funext fun a => Fin.ext (by match a with | ⟨0, _⟩ => rfl | ⟨1, _⟩ => rfl | ⟨2, _⟩ => rfl),
    show ridx_main_v1 (ix3 b t h) c = ix2 h c from funext fun a => Fin.ext (by match a with | ⟨0, _⟩ => rfl | ⟨1, _⟩ => rfl)]

/-- The value projection. -/
theorem values_apply (x0 : (⟨S8x2048x768, .f32⟩ : BufTy).Contents (Elt Ideal)) (x3 : (⟨S64x768, .f32⟩ : BufTy).Contents (Elt Ideal)) (b : Fin 8) (t : Fin 2048) (h : Fin 64) :
    val_main_v2 (F := Ideal) x0 x3 (ix3 b t h) = Attention.proj x0 x3 b t h := by
  rw [val_main_v2_apply]
  unfold Attention.proj
  refine Finset.sum_congr rfl fun c _ => ?_
  rw [show lidx_main_v2 (ix3 b t h) c = ix3 b t c from funext fun a => Fin.ext (by match a with | ⟨0, _⟩ => rfl | ⟨1, _⟩ => rfl | ⟨2, _⟩ => rfl),
    show ridx_main_v2 (ix3 b t h) c = ix2 h c from funext fun a => Fin.ext (by match a with | ⟨0, _⟩ => rfl | ⟨1, _⟩ => rfl)]

/-- The lower triangle's bit at (t, k): whether k <= t. -/
theorem tril_apply (t k : Fin 2048) :
    val_main_v5 (F := Ideal) (ix2 t k) = BitVec.ofBool (decide (k.val ≤ t.val)) := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  show Scalar.select (BitVec.ofBool ((BitVec.ofNat 32 k.val).sle (BitVec.ofNat 32 t.val + 0#32))) 1#1 0#1 = _
  have h1 := t.isLt
  have h2 := k.isLt
  rw [BitVec.add_zero, Attention.sle_words _ _ (by omega) (by omega), Attention.select_ofBool]
  by_cases hk : k.val ≤ t.val
  · rw [if_pos hk, decide_eq_true hk]; rfl
  · rw [if_neg hk, decide_eq_false hk]; rfl

/-- The masked scores. -/
theorem scores_apply (x0 : (⟨S8x2048x768, .f32⟩ : BufTy).Contents (Elt Ideal)) (x1 : (⟨S64x768, .f32⟩ : BufTy).Contents (Elt Ideal)) (x2 : (⟨S64x768, .f32⟩ : BufTy).Contents (Elt Ideal)) (b : Fin 8) (t k : Fin 2048) :
    val_main_v6 (F := Ideal) x0 x1 x2 (ix3 b t k) = Attention.score x0 x1 x2 b t k := by
  rw [val_main_v6_apply, val_main_call1_v1_apply, val_main_call1_v2_apply, val_main_call1_v0_apply, val_main_cst_apply,
    val_main_v3_apply,
    show idx_main_call1_v1 (ix3 b t k) = ix2 t k from funext fun a => Fin.ext (by match a with | ⟨0, _⟩ => rfl | ⟨1, _⟩ => rfl),
    tril_apply, Attention.select_ofBool]
  unfold Attention.score
  refine congrArg (fun a => if k.val ≤ t.val then a else Attention.fill) ?_
  refine Finset.sum_congr rfl fun h _ => ?_
  rw [show lidx_main_v3 (ix3 b t k) h = ix3 b t h from funext fun a => Fin.ext (by match a with | ⟨0, _⟩ => rfl | ⟨1, _⟩ => rfl | ⟨2, _⟩ => rfl),
    show ridx_main_v3 (ix3 b t k) h = ix3 b k h from funext fun a => Fin.ext (by match a with | ⟨0, _⟩ => rfl | ⟨1, _⟩ => rfl | ⟨2, _⟩ => rfl),
    queries_apply, keys_apply]

/-- A row's maximum. -/
theorem rowMax_apply (x0 : (⟨S8x2048x768, .f32⟩ : BufTy).Contents (Elt Ideal)) (x1 : (⟨S64x768, .f32⟩ : BufTy).Contents (Elt Ideal)) (x2 : (⟨S64x768, .f32⟩ : BufTy).Contents (Elt Ideal)) (b : Fin 8) (t : Fin 2048) :
    val_main_v9 (F := Ideal) x0 x1 x2 (ix2 b t)
      = RowSoftmax.rowMax Attention.negInf (fun k => Attention.score x0 x1 x2 b t k) := by
  have hred : S8x2048x2048.Reduces [2] S8x2048 := by decide
  rw [val_main_v9_apply, val_main_v8_apply, val_main_cst_1_apply]
  have h7 : val_main_v7 (F := Ideal) x0 x1 x2 (ix2 b t)
      = RowSoftmax.rowMax Attention.negInf (fun k => Attention.score x0 x1 x2 b t k) := by
    unfold val_main_v7
    rw [Host.reduce_eq_fold_single FloatOps.maximumf _ _ _ hred _]
    unfold RowSoftmax.rowMax
    refine congrArg (fun f => (Finset.univ : Finset (Fin 2048)).fold max Attention.negInf f) (funext fun (k : Fin 2048) => ?_)
    show val_main_v6 (F := Ideal) x0 x1 x2 (hred.lift (ix2 b t) k) = _
    have e : hred.lift (ix2 b t) k = ix3 b t k := funext fun a => Fin.ext (by match a with | ⟨0, _⟩ => rfl | ⟨1, _⟩ => rfl | ⟨2, _⟩ => rfl)
    rw [e, scores_apply]
  rw [h7]
  exact RowSoftmax.max_rowMax _ _

/-- The shifted exponentials. -/
theorem exps_apply (x0 : (⟨S8x2048x768, .f32⟩ : BufTy).Contents (Elt Ideal)) (x1 : (⟨S64x768, .f32⟩ : BufTy).Contents (Elt Ideal)) (x2 : (⟨S64x768, .f32⟩ : BufTy).Contents (Elt Ideal)) (b : Fin 8) (t k : Fin 2048) :
    val_main_v13 (F := Ideal) x0 x1 x2 (ix3 b t k)
      = Ideal.exp (Attention.score x0 x1 x2 b t k - RowSoftmax.rowMax Attention.negInf (fun k' => Attention.score x0 x1 x2 b t k')) := by
  rw [val_main_v13_apply, val_main_v12_apply, val_main_v11_apply, val_main_v10_apply,
    show idx_main_v10 (idx_main_v11 (ix3 b t k)) = ix2 b t from funext fun a => Fin.ext (by match a with | ⟨0, _⟩ => rfl | ⟨1, _⟩ => rfl),
    rowMax_apply, scores_apply]
  rfl

/-- The shares. -/
theorem shares_apply (x0 : (⟨S8x2048x768, .f32⟩ : BufTy).Contents (Elt Ideal)) (x1 : (⟨S64x768, .f32⟩ : BufTy).Contents (Elt Ideal)) (x2 : (⟨S64x768, .f32⟩ : BufTy).Contents (Elt Ideal)) (b : Fin 8) (t k : Fin 2048) :
    val_main_v17 (F := Ideal) x0 x1 x2 (ix3 b t k)
      = RowSoftmax.share Attention.negInf (fun k' => Attention.score x0 x1 x2 b t k') k := by
  rw [val_main_v17_apply, val_main_v16_apply, val_main_v15_apply,
    show idx_main_v15 (idx_main_v16 (ix3 b t k)) = ix2 b t from funext fun a => Fin.ext (by match a with | ⟨0, _⟩ => rfl | ⟨1, _⟩ => rfl),
    val_main_v14_apply, val_main_cst_2_apply, exps_apply]
  unfold RowSoftmax.share
  show Ideal.div _ (Ideal.ofBits .f32 0x00000000#32 + _) = _
  rw [Ideal.ofBits_zero_f32, zero_add]
  refine congrArg (Ideal.div _) (Finset.sum_congr rfl fun k' _ => ?_)
  rw [show idx_main_v14 (ix2 b t) k' = ix3 b t k' from funext fun a => Fin.ext (by match a with | ⟨0, _⟩ => rfl | ⟨1, _⟩ => rfl | ⟨2, _⟩ => rfl), exps_apply]

/-- The reference's result is the specification's. -/
theorem result_eq (x0 : (⟨S8x2048x768, .f32⟩ : BufTy).Contents (Elt Ideal)) (x1 : (⟨S64x768, .f32⟩ : BufTy).Contents (Elt Ideal)) (x2 : (⟨S64x768, .f32⟩ : BufTy).Contents (Elt Ideal)) (x3 : (⟨S64x768, .f32⟩ : BufTy).Contents (Elt Ideal)) :
    val_main_v18 (F := Ideal) x0 x1 x2 x3 = Attention.result x0 x1 x2 x3 := by
  funext i
  obtain ⟨b, t, h, rfl⟩ : ∃ (b : Fin 8) (t : Fin 2048) (h : Fin 64), i = ix3 b t h := ⟨i 0, i 1, i 2, eq_ix3 i⟩
  rw [val_main_v18_apply]
  show _ = Attention.out x0 x1 x2 x3 b t h
  unfold Attention.out
  refine Finset.sum_congr rfl fun k _ => ?_
  rw [show lidx_main_v18 (ix3 b t h) k = ix3 b t k from funext fun a => Fin.ext (by match a with | ⟨0, _⟩ => rfl | ⟨1, _⟩ => rfl | ⟨2, _⟩ => rfl),
    show ridx_main_v18 (ix3 b t h) k = ix3 b k h from funext fun a => Fin.ext (by match a with | ⟨0, _⟩ => rfl | ⟨1, _⟩ => rfl | ⟨2, _⟩ => rfl),
    shares_apply, values_apply]

end Cert.ReferenceIdeal.RefValue

end
-- ==== Proof.lean ====
/-
  One head of causal self-attention, fused into a single kernel, against the plain formulation.

  Both programs take x : [8, 2048, 768] and weights Wk, Wq, Wv : [64, 768] and return, for every batch b, query row t
  and feature h,
      the sum over key rows k of  share(b, t, k) * V(b, k, h),
  where K, Q, V are the projections x * W^T, the score of (t, k) is <Q(b, t, .), K(b, k, .)> for k <= t and one fixed
  large negative number for k > t (the same number in both programs), and share is the softmax of the scores along k
  (the exponential of the score minus the row's maximum, over the row's sum of those exponentials).

  The reference computes this with whole-array operations. The kernel walks a grid of 8 batches by 8 tiles of 256 query
  rows: at the first tile of a batch it computes that batch's key table (kept transposed) and value table into two
  buffers that stay in place across the batch's tiles; at every tile it projects its 256 query rows, multiplies them
  with the key table, masks by comparing the absolute row number (tile * 256 + row) with the column number, takes the
  row softmax, and multiplies with the value table. Its operands are narrowed before each matrix product, which changes
  nothing on the extended reals; a matrix product into a zero accumulator is the plain sum of products; the reference's
  extra maximum with minus infinity leaves the row maximum as it is. So, index by index, the two results are the same
  expression of the extended reals: no law beyond re-indexing is used and nothing needs to be finite.

  The frames of the two kernel programs are the generated ones; the reference's frame is its generated run with the
  result dropped; the idealization rewrote nothing.
-/
import proofs.«159955_j59356448031312_2_alg».proof.Defs
import proofs.«159955_j59356448031312_2_alg».proof.Proof.Gen.Kernel
import proofs.«159955_j59356448031312_2_alg».proof.Proof.Gen.Kernel.Skeleton
import proofs.«159955_j59356448031312_2_alg».proof.Proof.Gen.Kernel.Launch
import proofs.«159955_j59356448031312_2_alg».proof.Proof.Gen.Kernel.Points
import proofs.«159955_j59356448031312_2_alg».proof.Proof.Gen.Kernel.Frame
import proofs.«159955_j59356448031312_2_alg».proof.Proof.Gen.KernelIdeal
import proofs.«159955_j59356448031312_2_alg».proof.Proof.Gen.KernelIdeal.Skeleton
import proofs.«159955_j59356448031312_2_alg».proof.Proof.Gen.KernelIdeal.Launch
import proofs.«159955_j59356448031312_2_alg».proof.Proof.Gen.KernelIdeal.Points
import proofs.«159955_j59356448031312_2_alg».proof.Proof.Gen.KernelIdeal.Frame
import proofs.«159955_j59356448031312_2_alg».proof.Proof.Gen.KernelIdeal.Value
import proofs.«159955_j59356448031312_2_alg».proof.Proof.Gen.ReferenceIdeal
import proofs.«159955_j59356448031312_2_alg».proof.Proof.Gen.ReferenceIdeal.Run
import proofs.«159955_j59356448031312_2_alg».proof.Proof.Gen.ReferenceIdeal.Read
import proofs.«159955_j59356448031312_2_alg».proof.Proof.Gen.Pre_finite_inputs
import proofs.«159955_j59356448031312_2_alg».proof.Proof.KernelValue
import proofs.«159955_j59356448031312_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- On the extended reals the kernel's result array ends at the specification's attention of its arguments, and the
    reference's result is the specification's attention of its own arguments, which agree with the kernel's. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
